-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3072 : Shape := ⟨2, ![16384, 3072]⟩
abbrev S1024x3072 : Shape := ⟨2, ![1024, 3072]⟩
abbrev S1024 : Shape := ⟨1, ![1024]⟩
abbrev S1024x1024 : Shape := ⟨2, ![1024, 1024]⟩
abbrev S10x100x1024 : Shape := ⟨3, ![10, 100, 1024]⟩
abbrev S10x100 : Shape := ⟨2, ![10, 100]⟩
abbrev S_ : Shape := ⟨0, ![]⟩

class Facts : Prop where
  bcast_S_S16384x3072 : S_.BroadcastsInDim S16384x3072 (![] : Fin 0 → Fin S16384x3072.rank)
  reducesTo_S16384x3072_S_d0_1 : S16384x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S10x100x1024 : S_.BroadcastsInDim S10x100x1024 (![] : Fin 0 → Fin S10x100x1024.rank)
  reducesTo_S10x100x1024_S_d0_1_2 : S10x100x1024.ReducesTo [0, 1, 2] S_
  bcast_S_S10x100 : S_.BroadcastsInDim S10x100 (![] : Fin 0 → Fin S10x100.rank)
  reducesTo_S10x100_S_d0_1 : S10x100.ReducesTo [0, 1] S_

variable [Facts]

def fn_part1 {F : FTy → Type} [FloatOps F] (main_arg4 : FVec F S1024 .f32) (main_arg5 : FVec F S10x100x1024 .f32) (main_arg6 : FVec F S10x100 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S10x100x1024 .f32 := Host.absf main_arg5
  let main_cst_8 : FVec F S_ .f32 := constant S_ .f32 0x7F800000#32
  let main_v25 : FVec F S10x100x1024 .f32 := broadcastInDim S10x100x1024 ![] bcast_S_S10x100x1024 main_cst_8
  let main_v26 : IVec S10x100x1024 1 := cmpf .olt main_v24 main_v25
  let main_c_9 : IVec S_ 1 := constantI S_ 1 1#1
  let main_v27 : IVec S_ 1 := (fun x v => Host.reduce IntOp.andi x v reducesTo_S10x100x1024_S_d0_1_2 h_S_) main_v26 main_c_9
  let main_v28 : IVec S_ 1 := andi main_v23 main_v27
  let main_v29 : FVec F S10x100 .f32 := Host.absf main_arg6
  let main_cst_10 : FVec F S_ .f32 := constant S_ .f32 0x7F800000#32
  let main_v30 : FVec F S10x100 .f32 := broadcastInDim S10x100 ![] bcast_S_S10x100 main_cst_10
  let main_v31 : IVec S10x100 1 := cmpf .olt main_v29 main_v30
  let main_c_11 : IVec S_ 1 := constantI S_ 1 1#1
  let main_v32 : IVec S_ 1 := (fun x v => Host.reduce IntOp.andi x v reducesTo_S10x100_S_d0_1 h_S_) main_v31 main_c_11
  let main_v33 : IVec S_ 1 := andi main_v28 main_v32
  main_v33

def fn {F : FTy → Type} [FloatOps F] (main_arg0 : FVec F S16384x3072 .f32) (main_arg1 : FVec F S1024x3072 .f32) (main_arg2 : FVec F S1024 .f32) (main_arg3 : FVec F S1024x1024 .f32) (main_arg4 : FVec F S1024 .f32) (main_arg5 : FVec F S10x100x1024 .f32) (main_arg6 : FVec F S10x100 .f32) : IVec S_ 1 :=
  let main_v0 : FVec F S16384x3072 .f32 := Host.absf main_arg0
  let main_cst : FVec F S_ .f32 := constant S_ .f32 0x7F800000#32
  let main_v1 : FVec F S16384x3072 .f32 := broadcastInDim S16384x3072 ![] bcast_S_S16384x3072 main_cst
  let main_v2 : IVec S16384x3072 1 := cmpf .olt main_v0 main_v1
  let main_c : IVec S_ 1 := constantI S_ 1 1#1
  let main_v3 : IVec S_ 1 := (fun x v => Host.reduce IntOp.andi x v reducesTo_S16384x3072_S_d0_1 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S16384x3072 : Shape := ⟨2, ![16384, 3072]⟩
abbrev S1024x3072 : Shape := ⟨2, ![1024, 3072]⟩
abbrev S1024 : Shape := ⟨1, ![1024]⟩
abbrev S1024x1024 : Shape := ⟨2, ![1024, 1024]⟩
abbrev S10x100x1024 : Shape := ⟨3, ![10, 100, 1024]⟩
abbrev S10x100 : Shape := ⟨2, ![10, 100]⟩
abbrev S_ : Shape := ⟨0, ![]⟩
abbrev S1024x1 : Shape := ⟨2, ![1024, 1]⟩
abbrev S3072x1024 : Shape := ⟨2, ![3072, 1024]⟩
abbrev S1000x1024 : Shape := ⟨2, ![1000, 1024]⟩
abbrev S1024x1000 : Shape := ⟨2, ![1024, 1000]⟩
abbrev S1x1024 : Shape := ⟨2, ![1, 1024]⟩
abbrev S1x1000 : Shape := ⟨2, ![1, 1000]⟩
abbrev S16384x1000 : Shape := ⟨2, ![16384, 1000]⟩
abbrev S512x3072 : Shape := ⟨2, ![512, 3072]⟩
abbrev S512x1000 : Shape := ⟨2, ![512, 1000]⟩
abbrev S512x1024 : Shape := ⟨2, ![512, 1024]⟩

abbrev nBuf : Space → Nat
  | .hbm => 64
  | .vmem => 10
  | .smem => 0
  | _ => 0

abbrev bufTy : (tb : Table) → Fin (tcTables nBuf tb) → BufTy
  | .hbm, ⟨0, _⟩ => ⟨S16384x3072, .f32⟩
  | .hbm, ⟨1, _⟩ => ⟨S1024x3072, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S10x100x1024, .f32⟩
  | .hbm, ⟨6, _⟩ => ⟨S10x100, .f32⟩
  | .hbm, ⟨7, _⟩ => ⟨S1024x3072, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x3072, .f32⟩
  | .hbm, ⟨18, _⟩ => ⟨S1024x3072, .f32⟩
  | .hbm, ⟨19, _⟩ => ⟨S1024x3072, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x3072, .f32⟩
  | .hbm, ⟨24, _⟩ => ⟨S1024x3072, .f32⟩
  | .hbm, ⟨25, _⟩ => ⟨S_, .f32⟩
  | .hbm, ⟨26, _⟩ => ⟨S1024x3072, .f32⟩
  | .hbm, ⟨27, _⟩ => ⟨S1024x3072, .f32⟩
  | .hbm, ⟨28, _⟩ => ⟨S1024x3072, .f32⟩
  | .hbm, ⟨29, _⟩ => ⟨S1024x3072, .f32⟩
  | .hbm, ⟨30, _⟩ => ⟨S1024x1024, .f32⟩
  | .hbm, ⟨31, _⟩ => ⟨S_, .f32⟩
  | .hbm, ⟨32, _⟩ => ⟨S1024, .f32⟩
  | .hbm, ⟨33, _⟩ => ⟨S1024x1, .f32⟩
  | .hbm, ⟨34, _⟩ => ⟨S_, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x1024, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S3072x1024, .f32⟩
  | .hbm, ⟨54, _⟩ => ⟨S3072x1024, .bf16⟩
  | .hbm, ⟨55, _⟩ => ⟨S1024x1024, .f32⟩
  | .hbm, ⟨56, _⟩ => ⟨S1024x1024, .bf16⟩
  | .hbm, ⟨57, _⟩ => ⟨S1000x1024, .f32⟩
  | .hbm, ⟨58, _⟩ => ⟨S1024x1000, .f32⟩
  | .hbm, ⟨59, _⟩ => ⟨S1024x1000, .bf16⟩
  | .hbm, ⟨60, _⟩ => ⟨S1x1024, .f32⟩
  | .hbm, ⟨61, _⟩ => ⟨S1x1024, .f32⟩
  | .hbm, ⟨62, _⟩ => ⟨S1x1000, .f32⟩
  | .hbm, ⟨63, _⟩ => ⟨S16384x1000, .f32⟩
  | .local _ .vmem, ⟨0, _⟩ => ⟨S512x3072, .f32⟩
  | .local _ .vmem, ⟨1, _⟩ => ⟨S512x3072, .f32⟩
  | .local _ .vmem, ⟨2, _⟩ => ⟨S3072x1024, .bf16⟩
  | .local _ .vmem, ⟨3, _⟩ => ⟨S1024x1024, .bf16⟩
  | .local _ .vmem, ⟨4, _⟩ => ⟨S1024x1000, .bf16⟩
  | .local _ .vmem, ⟨5, _⟩ => ⟨S1x1024, .f32⟩
  | .local _ .vmem, ⟨6, _⟩ => ⟨S1x1024, .f32⟩
  | .local _ .vmem, ⟨7, _⟩ => ⟨S1x1000, .f32⟩
  | .local _ .vmem, ⟨8, _⟩ => ⟨S512x1000, .f32⟩
  | .local _ .vmem, ⟨9, _⟩ => ⟨S512x1000, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_cst_0 : Ref sig .tc := ⟨.hbm, 11, rfl⟩
abbrev main_call0_v3 : Ref sig .tc := ⟨.hbm, 12, rfl⟩
abbrev main_call0_v4 : Ref sig .tc := ⟨.hbm, 13, rfl⟩
abbrev main_call0_cst_1 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_cst_2 : Ref sig .tc := ⟨.hbm, 20, rfl⟩
abbrev main_call0_cst_3 : Ref sig .tc := ⟨.hbm, 21, rfl⟩
abbrev main_call0_call1_v0 : Ref sig .tc := ⟨.hbm, 22, rfl⟩
abbrev main_call0_call1_v1 : Ref sig .tc := ⟨.hbm, 23, rfl⟩
abbrev main_call0_call1_v2 : Ref sig .tc := ⟨.hbm, 24, rfl⟩
abbrev main_call0_call1_v3 : Ref sig .tc := ⟨.hbm, 25, rfl⟩
abbrev main_call0_call1_v4 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst_4 : Ref sig .tc := ⟨.hbm, 31, rfl⟩
abbrev main_call0_v14 : Ref sig .tc := ⟨.hbm, 32, rfl⟩
abbrev main_call0_v15 : Ref sig .tc := ⟨.hbm, 33, rfl⟩
abbrev main_call0_cst_5 : Ref sig .tc := ⟨.hbm, 34, rfl⟩
abbrev main_call0_v16 : Ref sig .tc := ⟨.hbm, 35, rfl⟩
abbrev main_call0_v17 : Ref sig .tc := ⟨.hbm, 36, rfl⟩
abbrev main_call0_cst_6 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_cst_7 : Ref sig .tc := ⟨.hbm, 43, rfl⟩
abbrev main_call0_cst_8 : Ref sig .tc := ⟨.hbm, 44, rfl⟩
abbrev main_call0_call3_v0 : Ref sig .tc := ⟨.hbm, 45, rfl⟩
abbrev main_call0_call3_v1 : Ref sig .tc := ⟨.hbm, 46, rfl⟩
abbrev main_call0_call3_v2 : Ref sig .tc := ⟨.hbm, 47, rfl⟩
abbrev main_call0_call3_v3 : Ref sig .tc := ⟨.hbm, 48, rfl⟩
abbrev main_call0_call3_v4 : Ref sig .tc := ⟨.hbm, 49, rfl⟩
abbrev main_call0_v23 : Ref sig .tc := ⟨.hbm, 50, rfl⟩
abbrev main_call0_v24 : Ref sig .tc := ⟨.hbm, 51, rfl⟩
abbrev main_call0_v25 : Ref sig .tc := ⟨.hbm, 52, rfl⟩
abbrev main_call0_v26 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_v32 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_v0 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S1024x3072_S1024_d1 : S1024x3072.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x3072_0_1 : S1024x1.BroadcastsInDim S1024x3072 (![0, 1] : Fin 2 → Fin S1024x3072.rank)
  bcast_S_S1024x3072 : S_.BroadcastsInDim S1024x3072 (![] : Fin 0 → Fin S1024x3072.rank)
  reducesTo_S1024x1024_S1024_d1 : S1024x1024.ReducesTo [1] S1024
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x3072_S3072x1024_1_0 : S1024x3072.Transposes [1, 0] S3072x1024
  bitsLt_bf16_f32 : FTy.bits .bf16 < FTy.bits .f32
  transposes_S1024x1024_S1024x1024_1_0 : S1024x1024.Transposes [1, 0] S1024x1024
  shapeCasts_S10x100x1024_S1000x1024 : S10x100x1024.ShapeCasts S1000x1024
  transposes_S1000x1024_S1024x1000_1_0 : S1000x1024.Transposes [1, 0] S1024x1000
  shapeCasts_S1024_S1x1024 : S1024.ShapeCasts S1x1024
  shapeCasts_S10x100_S1x1000 : S10x100.ShapeCasts S1x1000
  inb_S512x3072_S512x3072_0_0 : ∀ a, (![0, 0] : Fin 2 → Nat) a + S512x3072.size a ≤ S512x3072.size a
  h_S512x3072 : 0 < S512x3072.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1000_S1024x1000_0_0 : ∀ a, (![0, 0] : Fin 2 → Nat) a + S1024x1000.size a ≤ S1024x1000.size a
  h_S1024x1000 : 0 < S1024x1000.numel
  shapeCasts_S1024x1000_S1024x1000 : S1024x1000.ShapeCasts S1024x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S512x3072_S3072x1024_S512x1024_1_0_0_1_n_n_wf : DotDims.WF S512x3072 S3072x1024 S512x1024 [1] [0] [0] [1] [] []
  dot_S512x1024_S1024x1024_S512x1024_1_0_0_1_n_n_wf : DotDims.WF S512x1024 S1024x1024 S512x1024 [1] [0] [0] [1] [] []
  dot_S512x1024_S1024x1000_S512x1000_1_0_0_1_n_n_wf : DotDims.WF S512x1024 S1024x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S16384x3072.size a
  hwx0_0 : ∀ i : grid0.Coords, EltTy.bits .f32 = 32 ∨ (Rect.block (s := S16384x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S1024x1000.size a
  hwx0_3 : ∀ i : grid0.Coords, EltTy.bits .bf16 = 32 ∨ (Rect.block (s := S1024x1000) S1024x1000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1000.size a ≤ S1x1000.size a
  hwx0_6 : ∀ i : grid0.Coords, EltTy.bits .f32 = 32 ∨ (Rect.block (s := S1x1000) S1x1000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1000.size a ≤ S16384x1000.size a
  hwx0_7 : ∀ i : grid0.Coords, EltTy.bits .f32 = 32 ∨ (Rect.block (s := S16384x1000) S512x1000.size (cc0_transform_7 i) (hinb0_7 i)).WholeWords (EltTy.packing .f32)

variable [Facts₀]

def dot_S512x3072_S3072x1024_S512x1024_1_0_0_1_n_n : DotDims S512x3072 S3072x1024 S512x1024 where
  lhsContracting := [1]
  rhsContracting := [0]
  lhsNonContracting := [0]
  rhsNonContracting := [1]
  lhsBatch := []
  rhsBatch := []
  wf := dot_S512x3072_S3072x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x1000_S512x1000_1_0_0_1_n_n : DotDims S512x1024 S1024x1000 S512x1000 where
  lhsContracting := [1]
  rhsContracting := [0]
  lhsNonContracting := [0]
  rhsNonContracting := [1]
  lhsBatch := []
  rhsBatch := []
  wf := dot_S512x1024_S1024x1000_S512x1000_1_0_0_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v27) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v29) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v32) S1024x1000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v33) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v34) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v35) S1x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512x1000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x3072 : Shape := ⟨2, ![16384, 3072]⟩
abbrev S1024x3072 : Shape := ⟨2, ![1024, 3072]⟩
abbrev S1024 : Shape := ⟨1, ![1024]⟩
abbrev S1024x1024 : Shape := ⟨2, ![1024, 1024]⟩
abbrev S10x100x1024 : Shape := ⟨3, ![10, 100, 1024]⟩
abbrev S10x100 : Shape := ⟨2, ![10, 100]⟩
abbrev S_ : Shape := ⟨0, ![]⟩
abbrev S1024x1 : Shape := ⟨2, ![1024, 1]⟩
abbrev S3072x1024 : Shape := ⟨2, ![3072, 1024]⟩
abbrev S16384x1024 : Shape := ⟨2, ![16384, 1024]⟩
abbrev S1x1024 : Shape := ⟨2, ![1, 1024]⟩
abbrev S16384x10x100 : Shape := ⟨3, ![16384, 10, 100]⟩
abbrev S1x10x100 : Shape := ⟨3, ![1, 10, 100]⟩
abbrev S16384x1000 : Shape := ⟨2, ![16384, 1000]⟩

abbrev nBuf : Space → Nat
  | .hbm => 78
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S1024x3072, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S10x100x1024, .f32⟩
  | .hbm, ⟨6, _⟩ => ⟨S10x100, .f32⟩
  | .hbm, ⟨7, _⟩ => ⟨S1024x3072, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S1024x3072, .f32⟩
  | .hbm, ⟨18, _⟩ => ⟨S1024x3072, .f32⟩
  | .hbm, ⟨19, _⟩ => ⟨S1024x3072, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024x3072, .f32⟩
  | .hbm, ⟨24, _⟩ => ⟨S1024x3072, .f32⟩
  | .hbm, ⟨25, _⟩ => ⟨S_, .f32⟩
  | .hbm, ⟨26, _⟩ => ⟨S1024x3072, .f32⟩
  | .hbm, ⟨27, _⟩ => ⟨S1024x3072, .f32⟩
  | .hbm, ⟨28, _⟩ => ⟨S1024x3072, .f32⟩
  | .hbm, ⟨29, _⟩ => ⟨S1024x3072, .f32⟩
  | .hbm, ⟨30, _⟩ => ⟨S1024x3072, .f32⟩
  | .hbm, ⟨31, _⟩ => ⟨S1024x3072, .f32⟩
  | .hbm, ⟨32, _⟩ => ⟨S3072x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S1024x1024, .f32⟩
  | .hbm, ⟨41, _⟩ => ⟨S_, .f32⟩
  | .hbm, ⟨42, _⟩ => ⟨S1024, .f32⟩
  | .hbm, ⟨43, _⟩ => ⟨S1024x1, .f32⟩
  | .hbm, ⟨44, _⟩ => ⟨S_, .f32⟩
  | .hbm, ⟨45, _⟩ => ⟨S1024x1, .f32⟩
  | .hbm, ⟨46, _⟩ => ⟨S1024x1, .f32⟩
  | .hbm, ⟨47, _⟩ => ⟨S_, .f32⟩
  | .hbm, ⟨48, _⟩ => ⟨S1024x1, .f32⟩
  | .hbm, ⟨49, _⟩ => ⟨S1024x1, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1024x1024, .f32⟩
  | .hbm, ⟨57, _⟩ => ⟨S1024x1024, .f32⟩
  | .hbm, ⟨58, _⟩ => ⟨S_, .f32⟩
  | .hbm, ⟨59, _⟩ => ⟨S1024x1024, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S16384x10x100, .f32⟩
  | .hbm, ⟨74, _⟩ => ⟨S1x10x100, .f32⟩
  | .hbm, ⟨75, _⟩ => ⟨S16384x10x100, .f32⟩
  | .hbm, ⟨76, _⟩ => ⟨S16384x10x100, .f32⟩
  | .hbm, ⟨77, _⟩ => ⟨S16384x1000, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_cst : Ref sig .tc := ⟨.hbm, 37, rfl⟩
abbrev main_call2_v0 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_cst_8 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call5_cst : Ref sig .tc := ⟨.hbm, 70, rfl⟩
abbrev main_call5_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]

class Facts₀ : Prop where
  reducesTo_S1024x3072_S1024_d1 : S1024x3072.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x3072_0_1 : S1024x1.BroadcastsInDim S1024x3072 (![0, 1] : Fin 2 → Fin S1024x3072.rank)
  bcast_S_S1024x3072 : S_.BroadcastsInDim S1024x3072 (![] : Fin 0 → Fin S1024x3072.rank)
  transposes_S1024x3072_S3072x1024_1_0 : S1024x3072.Transposes [1, 0] S3072x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  reducesTo_S1024x1024_S1024_d1 : S1024x1024.ReducesTo [1] S1024
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  transposes_S1024x1024_S1024x1024_1_0 : S1024x1024.Transposes [1, 0] S1024x1024
  bcast_S10x100_S1x10x100_1_2 : S10x100.BroadcastsInDim S1x10x100 (![1, 2] : Fin 2 → Fin S1x10x100.rank)
  bcast_S1x10x100_S16384x10x100_0_1_2 : S1x10x100.BroadcastsInDim S16384x10x100 (![0, 1, 2] : Fin 3 → Fin S16384x10x100.rank)
  shapeCasts_S16384x10x100_S16384x1000 : S16384x10x100.ShapeCasts S16384x1000
  dot_S16384x3072_S3072x1024_S16384x1024_1_0_0_1_n_n_wf : DotDims.WF S16384x3072 S3072x1024 S16384x1024 [1] [0] [0] [1] [] []
  dot_S16384x1024_S1024x1024_S16384x1024_1_0_0_1_n_n_wf : DotDims.WF S16384x1024 S1024x1024 S16384x1024 [1] [0] [0] [1] [] []
  dot_S16384x1024_S10x100x1024_S16384x10x100_1_2_0_01_n_n_wf : DotDims.WF S16384x1024 S10x100x1024 S16384x10x100 [1] [2] [0] [0, 1] [] []

variable [Facts₀]

def dot_S16384x3072_S3072x1024_S16384x1024_1_0_0_1_n_n : DotDims S16384x3072 S3072x1024 S16384x1024 where
  lhsContracting := [1]
  rhsContracting := [0]
  lhsNonContracting := [0]
  rhsNonContracting := [1]
  lhsBatch := []
  rhsBatch := []
  wf := dot_S16384x3072_S3072x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S10x100x1024_S16384x10x100_1_2_0_01_n_n : DotDims S16384x1024 S10x100x1024 S16384x10x100 where
  lhsContracting := [1]
  rhsContracting := [2]
  lhsNonContracting := [0]
  rhsNonContracting := [0, 1]
  lhsBatch := []
  rhsBatch := []
  wf := dot_S16384x1024_S10x100x1024_S16384x10x100_1_2_0_01_n_n_wf

class Facts : Prop extends Facts₀ where

variable [Facts]
-- ==== Proof.LibStraightThrough.lean ====
import Idealize.ShloMosaic.PureOps.Ideal

/-!
# Two laws on the extended reals met by a straight-through quantizer

A quantizer with a straight-through estimator computes `w + (q - w)` where the value wanted is `q` (the difference is
there for differentiation only). Over the extended reals this is `q` whenever `w` is a real number, whatever `q` is —
also for `q = ⊤` or `q = ⊥`. For an infinite `w` it is not: `⊤ + (q - ⊤) = ⊥` for real `q`.

The usual way to know that `w` is real is a precondition "the absolute value of every entry is strictly below `+∞`",
the absolute value read as `max w (-w)`: a number whose absolute value lies strictly below ANY bound is neither `⊤`
nor `⊥`, so the bound's own value is never needed.
-/

namespace Idealize.ShloMosaic.StraightThrough

/-- Adding to a real number the difference between any extended real and it gives that extended real. -/
theorem add_sub_cancel_of_real (r : ℝ) (q : EReal) : (r : EReal) + (q - (r : EReal)) = q := by
  induction q using EReal.rec with
  | bot => simp
  | coe s => rw [← EReal.coe_sub, ← EReal.coe_add]; congr 1; ring
  | top => simp

/-- The same with the real number given as an extended real known to be one. -/
theorem add_sub_cancel_of_exists_real {w : EReal} (hw : ∃ r : ℝ, w = (r : EReal)) (q : EReal) : w + (q - w) = q := by
  obtain ⟨r, rfl⟩ := hw
  exact add_sub_cancel_of_real r q

/-- A number whose absolute value `max x (-x)` is strictly below a bound is real: it is not `⊤`, and neither is
    its negative. -/
theorem real_of_abs_lt {x y : EReal} (h : max x (-x) < y) : ∃ r : ℝ, x = (r : EReal) := by
  have h1 : x < y := lt_of_le_of_lt (le_max_left _ _) h
  have h2 : -x < y := lt_of_le_of_lt (le_max_right _ _) h
  induction x using EReal.rec with
  | bot => exact absurd h2 (by simp)
  | coe r => exact ⟨r, rfl⟩
  | top => exact absurd h1 (by simp)

end Idealize.ShloMosaic.StraightThrough
-- ==== Proof.MlpSpec.lean ====
import Idealize.ShloMosaic.PureOps.Ideal
import Idealize.ShloMosaic.Lib.ValueIdx
import proofs.«112751_j30940944400880_2_alg».proof.Proof.LibStraightThrough

/-!
# A three-layer perceptron with a rectifier after the first two layers, row by row

One row of the input, `x : Fin 3072 → EReal`, goes through

* `h₁ j = max (∑ k, x k · q₁ j k + b₁ j) 0` for `j < 1024`,
* `h₂ j = max (∑ k, h₁ k · q₂ j k + b₂ j) 0` for `j < 1024`,
* `out n = ∑ k, h₂ k · w n k + b n` for `n < 1000`,

the weights indexed output channel first. The thousand output channels are ten heads of a hundred classes
each, laid side by side: channel `n` is class `n % 100` of head `n / 100`. A row of the result depends on
no other row of the input, which is what lets the rows be computed in independent blocks.

The two laws on the extended reals that join the programs are in the module imported here: adding to a real
number `w` the difference `q - w` gives `q` back, and a number whose absolute value lies strictly below some bound
is real.
-/

noncomputable section

open scoped BigOperators

namespace Cert.MlpSpec

open Idealize.ShloMosaic Idealize.ShloMosaic.ValueIdx

/-- One affine layer applied to a row: `(∑ k, h k · w j k) + b j`, weights indexed output channel first. -/
def affine {K N : Nat} (h : Fin K → EReal) (w : Fin N → Fin K → EReal) (b : Fin N → EReal) : Fin N → EReal :=
  fun j => ∑ k : Fin K, h k * w j k + b j

/-- The rectifier, entry by entry: `max v 0`. -/
def rect {N : Nat} (v : Fin N → EReal) : Fin N → EReal := fun j => max (v j) 0

/-- The whole network on one row. -/
def mlpRow (x : Fin 3072 → EReal) (q1 : Fin 1024 → Fin 3072 → EReal) (b1 : Fin 1024 → EReal)
    (q2 : Fin 1024 → Fin 1024 → EReal) (b2 : Fin 1024 → EReal)
    (w : Fin 1000 → Fin 1024 → EReal) (b : Fin 1000 → EReal) : Fin 1000 → EReal :=
  affine (rect (affine (rect (affine x q1 b1)) q2 b2)) w b

/-- The head of output channel `n`. -/
def headOf (n : Fin 1000) : Fin 10 := ⟨n.val / 100, by have := n.isLt; omega⟩

/-- The class, within its head, of output channel `n`. -/
def classOf (n : Fin 1000) : Fin 100 := ⟨n.val % 100, Nat.mod_lt _ (by decide)⟩

/-- The result array `[16384, 1000]` as one function of the input `[16384, 3072]`, the two weight matrices
    `[1024, 3072]` and `[1024, 1024]` with their biases `[1024]`, the head weights `[10, 100, 1024]` and the head
    biases `[10, 100]`: entry `(p, n)` is channel `n` of the network on row `p`. -/
def out (X : (⟨2, ![16384, 3072]⟩ : Shape).Idx → EReal) (Q1 : (⟨2, ![1024, 3072]⟩ : Shape).Idx → EReal)
    (B1 : (⟨1, ![1024]⟩ : Shape).Idx → EReal) (Q2 : (⟨2, ![1024, 1024]⟩ : Shape).Idx → EReal)
    (B2 : (⟨1, ![1024]⟩ : Shape).Idx → EReal) (HW : (⟨3, ![10, 100, 1024]⟩ : Shape).Idx → EReal)
    (HB : (⟨2, ![10, 100]⟩ : Shape).Idx → EReal) : (⟨2, ![16384, 1000]⟩ : Shape).Idx → EReal :=
  fun i => mlpRow (fun k => X (ix2 (i 0) k)) (fun j k => Q1 (ix2 j k)) (fun j => B1 (ix1 j))
    (fun j k => Q2 (ix2 j k)) (fun j => B2 (ix1 j))
    (fun n k => HW (ix3 (headOf n) (classOf n) k)) (fun n => HB (ix2 (headOf n) (classOf n))) (i 1)

end Cert.MlpSpec

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.MlpBody.lean ====
import proofs.«112751_j30940944400880_2_alg».proof.Proof.Gen.KernelIdeal.Skeleton
import proofs.«112751_j30940944400880_2_alg».proof.Proof.MlpSpec
import proofs.«112751_j30940944400880_2_alg».proof.Proof.LibPlainMatmul
import Idealize.ShloMosaic.Lib.Pipeline.Value

/-!
# The kernel body's value, entry by entry

The body multiplies a block of 512 input rows by the first weight matrix (held already transposed, `[3072, 1024]`),
adds the first bias (held as a row `[1, 1024]` and repeated down the block), takes the maximum with zero, and does
the same with the second weight matrix; a third product with the head weights (held as `[1024, 1000]`) and the
head biases (a row `[1, 1000]`) gives the block of results. Each product starts from a zero accumulator, so over
the extended reals it is the plain sum `∑ k, l[p, k] · r[k, q]`; the changes of float format between the layers
are the identity there. Entry `(r, n)` of the block of results is therefore channel `n` of the network on row
`r` of the block of inputs, with the weight of output channel `j` and input channel `k` read at `[k, j]`.
-/

noncomputable section

open scoped BigOperators

namespace Cert.KernelIdeal.Body

open Cert.KernelIdeal Cert.KernelIdeal.Gen Idealize.ShloMosaic Idealize.ShloMosaic.ValueIdx Cert.MlpSpec
open Idealize.ShloMosaic.PlainMatmul

/-- A row `[1, N]` repeated down `M` rows, read at `(p, q)`, is the row at `q`. -/
theorem rowBroadcast_apply {M N : Nat} (b : (⟨2, ![1, N]⟩ : Shape).Idx → EReal)
    (h : (⟨2, ![1, N]⟩ : Shape).Broadcasts ⟨2, ![M, N]⟩) (p : Fin M) (q : Fin N) :
    broadcastTo ⟨2, ![M, N]⟩ b h (ix2 p q) = b (ix2 (0 : Fin 1) q) := by
  refine broadcastTo_apply b h (ix2 p q) (ix2 (0 : Fin 1) q) (fun a => ?_)
  match a with
  | ⟨0, _⟩ => show 0 = if (1 : Nat) = 1 then 0 else _; rw [if_pos rfl]
  | ⟨1, _⟩ =>
    show q.val = if N = 1 then 0 else q.val
    have := q.isLt
    split <;> omega

/-- One layer of the body before its rectifier: the product into a zero accumulator plus the repeated bias row, at
    `(p, q)`, is the affine layer on row `p` of the left operand, the weights read transposed. -/
theorem dense_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (w : FVec Ideal ⟨2, ![K, N]⟩ φ₂) (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (p : Fin M) (q : Fin N) :
    addf (FloatOps.matmul d none l (shapeCast ⟨2, ![K, N]⟩ w hw) (constant ⟨2, ![M, N]⟩ .f32 0x00000000#32))
        (broadcastTo ⟨2, ![M, N]⟩ (shapeCast ⟨2, ![1, N]⟩ b hb) hbc) (ix2 p q)
      = affine (fun k => l (ix2 p k)) (fun j k => w (ix2 k j)) (fun j => b (ix2 (0 : Fin 1) j)) q := by
  rw [shapeCast_self, shapeCast_self]
  show FloatOps.matmul d none l w (constant ⟨2, ![M, N]⟩ .f32 0x00000000#32) (ix2 p q)
      + broadcastTo ⟨2, ![M, N]⟩ b hbc (ix2 p q) = _
  rw [rowBroadcast_apply, matmul_plain_apply d hlc hrc hln hrn hlb hrb none l w p q]
  rfl

/-- One layer of the body with its rectifier (the maximum with a block of zeros) and the change of float format that
    follows it, at `(p, q)`: the rectified affine layer on row `p` of the left operand. -/
theorem layer_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (w : FVec Ideal ⟨2, ![K, N]⟩ φ₂) (b : FVec Ideal ⟨2, ![1, N]⟩ .f32)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (hlt : FTy.bf16.bits < FTy.f32.bits)
    (p : Fin M) (q : Fin N) :
    (truncf .bf16
        (maximumf
          (addf (FloatOps.matmul d none l (shapeCast ⟨2, ![K, N]⟩ w hw) (constant ⟨2, ![M, N]⟩ .f32 0x00000000#32))
            (broadcastTo ⟨2, ![M, N]⟩ (shapeCast ⟨2, ![1, N]⟩ b hb) hbc))
          (broadcast ⟨2, ![M, N]⟩ (FloatOps.ofBits (F := Ideal) .f32 0x00000000#32))) hlt : FVec Ideal ⟨2, ![M, N]⟩ .bf16)
        (ix2 p q)
      = rect (affine (fun k => l (ix2 p k)) (fun j k => w (ix2 k j)) (fun j => b (ix2 (0 : Fin 1) j))) q := by
  show max (addf (FloatOps.matmul d none l (shapeCast ⟨2, ![K, N]⟩ w hw) (constant ⟨2, ![M, N]⟩ .f32 0x00000000#32))
      (broadcastTo ⟨2, ![M, N]⟩ (shapeCast ⟨2, ![1, N]⟩ b hb) hbc) (ix2 p q)) (Ideal.ofBits .f32 0x00000000#32) = _
  rw [dense_apply d hlc hrc hln hrn hlb hrb l w b hw hb hbc p q, Ideal.ofBits_zero_f32]
  rfl

/-- The block of results at `(r, n)`: channel `n` of the network on row `r` of the block of inputs. -/
theorem pay_apply (x0 : Vec Ideal S512x3072 .f32) (x1 : Vec Ideal S3072x1024 .bf16) (x4 : Vec Ideal S1x1024 .f32)
    (x2 : Vec Ideal S1024x1024 .bf16) (x5 : Vec Ideal S1x1024 .f32) (x3 : Vec Ideal S1024x1000 .bf16)
    (x6 : Vec Ideal S1x1000 .f32) (r : Fin 512) (n : Fin 1000) :
    k0_pay1 (F := Ideal) x0 x1 x4 x2 x5 x3 x6 (ix2 r n)
      = mlpRow (fun k => x0 (ix2 r k)) (fun j k => x1 (ix2 k j)) (fun j => x4 (ix2 (0 : Fin 1) j))
          (fun j k => x2 (ix2 k j)) (fun j => x5 (ix2 (0 : Fin 1) j))
          (fun j k => x3 (ix2 k j)) (fun j => x6 (ix2 (0 : Fin 1) j)) n := by
  unfold k0_pay1
  refine (dense_apply (M := 512) (K := 1024) (N := 1000) dot_S512x1024_S1024x1000_S512x1000_1_0_0_1_n_n
    rfl rfl rfl rfl rfl rfl _ x3 x6 _ _ _ r n).trans ?_
  unfold mlpRow
  refine congrArg (fun h => affine h _ _ n) (funext fun k => ?_)
  refine (layer_apply (M := 512) (K := 1024) (N := 1024) dot_S512x1024_S1024x1024_S512x1024_1_0_0_1_n_n
    rfl rfl rfl rfl rfl rfl _ x2 x5 _ _ _ _ r k).trans ?_
  refine congrArg (fun h => rect (affine h _ _) k) (funext fun k' => ?_)
  exact layer_apply (M := 512) (K := 3072) (N := 1024) dot_S512x3072_S3072x1024_S512x1024_1_0_0_1_n_n
    rfl rfl rfl rfl rfl rfl _ x1 x4 _ _ _ _ r k'

/-- A block of results is a block of rows of the whole result. If the block of inputs is rows `T·512 …` of the input
    array, and the resident blocks hold the weight matrices transposed, the biases as rows and the head weights with
    head and class flattened and transposed, then entry `y` of the block of results is the entry of the whole result
    at row `T·512 + y₀`, column `y₁`. -/
theorem block_eq (X : S16384x3072.Idx → EReal) (Q1 : S1024x3072.Idx → EReal) (B1 : S1024.Idx → EReal)
    (Q2 : S1024x1024.Idx → EReal) (B2 : S1024.Idx → EReal) (HW : S10x100x1024.Idx → EReal) (HB : S10x100.Idx → EReal)
    (x0 : Vec Ideal S512x3072 .f32) (x1 : Vec Ideal S3072x1024 .bf16) (x4 : Vec Ideal S1x1024 .f32)
    (x2 : Vec Ideal S1024x1024 .bf16) (x5 : Vec Ideal S1x1024 .f32) (x3 : Vec Ideal S1024x1000 .bf16)
    (x6 : Vec Ideal S1x1000 .f32) (T : Nat) (hT : T < 32)
    (h0 : ∀ (r : Fin 512) (k : Fin 3072),
      x0 (ix2 r k) = X (ix2 (⟨T * 512 + r.val, by have := r.isLt; omega⟩ : Fin 16384) k))
    (h1 : ∀ (k : Fin 3072) (j : Fin 1024), x1 (ix2 k j) = Q1 (ix2 j k))
    (h4 : ∀ j : Fin 1024, x4 (ix2 (0 : Fin 1) j) = B1 (ix1 j))
    (h2 : ∀ (k : Fin 1024) (j : Fin 1024), x2 (ix2 k j) = Q2 (ix2 j k))
    (h5 : ∀ j : Fin 1024, x5 (ix2 (0 : Fin 1) j) = B2 (ix1 j))
    (h3 : ∀ (k : Fin 1024) (n : Fin 1000), x3 (ix2 k n) = HW (ix3 (headOf n) (classOf n) k))
    (h6 : ∀ n : Fin 1000, x6 (ix2 (0 : Fin 1) n) = HB (ix2 (headOf n) (classOf n)))
    (y : S512x1000.Idx) (i : S16384x1000.Idx) (hi0 : (i 0).val = T * 512 + (y 0).val) (hi1 : (i 1).val = (y 1).val) :
    k0_pay1 (F := Ideal) x0 x1 x4 x2 x5 x3 x6 y = Cert.MlpSpec.out X Q1 B1 Q2 B2 HW HB i := by
  obtain ⟨r, n, rfl⟩ : ∃ (r : Fin 512) (n : Fin 1000), y = ix2 r n := ⟨y 0, y 1, eq_ix2 y⟩
  have hr : T * 512 + r.val < 16384 := by have := r.isLt; omega
  have e0 : i 0 = (⟨T * 512 + r.val, hr⟩ : Fin 16384) := Fin.ext hi0
  have e1 : i 1 = n := Fin.ext hi1
  rw [pay_apply]
  unfold Cert.MlpSpec.out
  rw [e0, e1]
  simp only [h0, h1, h2, h3, h4, h5, h6]

end Cert.KernelIdeal.Body

end
-- ==== Proof.MlpWindows.lean ====
import proofs.«112751_j30940944400880_2_alg».proof.Proof.Gen.KernelIdeal.Frame
import proofs.«112751_j30940944400880_2_alg».proof.Proof.MlpSpec
import Idealize.ShloMosaic.Lib.Pipeline.Value
import Idealize.ShloMosaic.Lib.StableHlo.Run

/-!
# What the resident blocks hold

Before the grid starts, the host re-lays the parameters for the body. The biases `[1024]` become rows `[1, 1024]`;
the head biases `[10, 100]` become one row `[1, 1000]`, head after head; the head weights `[10, 100, 1024]` are
flattened to `[1000, 1024]` (row `n` is class `n % 100` of head `n / 100`) and transposed to `[1024, 1000]`. Read at
an index, each of these arrays is the parameter at the matching index: flattening keeps the row-major position, a
transposition swaps the two coordinates, a change of float format changes nothing over the extended reals.

Each of the two weight matrices is first quantized row by row: the row's step is its largest absolute value over
127 (but at least a tiny positive constant), and an entry becomes its quotient by the step, rounded to the nearest
integer, clamped to `[-128, 127]`, times the step. The quantized matrix is then transposed. Nothing here needs to
know what the quantization computes: it is kept as one term `quant1 w` (`quant2 w`), and the resident block read
at `(k, j)` is that term at `(j, k)`.
-/

noncomputable section

namespace Cert.KernelIdeal.Windows

open Cert.KernelIdeal Cert.KernelIdeal.Gen Idealize.ShloMosaic Idealize.ShloMosaic.TcCoe Idealize.SL.Sem
open Idealize.ShloMosaic.ValueIdx Idealize.ShloMosaic.StableHlo Cert.MlpSpec

variable (m : (ℓ : Loc nD τ sig) → Buf (Elt Ideal) ℓ)

/-! ## The quantized weight matrices, transposed -/

/-- The step of the quantization grid of each row of a `[1024, 3072]` matrix: the row's largest absolute value over 127,
    but at least a tiny positive constant; kept as a column `[1024, 1]`. -/
def scale1 (w : FVec Ideal S1024x3072 .f32) : FVec Ideal S1024x1 .f32 :=
  maximumf (Host.divf (broadcastInDim S1024x1 ![0] bcast_S1024_S1024x1_0 (Host.reduce FloatOps.maximumf (Host.absf w) (constant S_ .f32 0xFF800000#32) reducesTo_S1024x3072_S1024_d1 h_S_)) (broadcastInDim S1024x1 ![] bcast_S_S1024x1 (constant S_ .f32 0x42FE0000#32))) (broadcastInDim S1024x1 ![] bcast_S_S1024x1 (constant S_ .f32 0x2B8CBCCC#32))

/-- The matrix quantized row by row: each entry divided by its row's step, rounded to the nearest integer (ties to
    even), clamped to `[-128, 127]`, and multiplied by the step again. -/
def quant1 (w : FVec Ideal S1024x3072 .f32) : FVec Ideal S1024x3072 .f32 :=
  mulf (minimumf (broadcastInDim S1024x3072 ![] bcast_S_S1024x3072 (id (constant S_ .f32 0x42FE0000#32))) (maximumf (broadcastInDim S1024x3072 ![] bcast_S_S1024x3072 (id (constant S_ .f32 0xC3000000#32))) (Host.roundeven (Host.divf w (broadcastInDim S1024x3072 ![0, 1] bcast_S1024x1_S1024x3072_0_1 (scale1 w)))))) (broadcastInDim S1024x3072 ![0, 1] bcast_S1024x1_S1024x3072_0_1 (scale1 w))

/-- The same step for a `[1024, 1024]` matrix. -/
def scale2 (w : FVec Ideal S1024x1024 .f32) : FVec Ideal S1024x1 .f32 :=
  maximumf (Host.divf (broadcastInDim S1024x1 ![0] bcast_S1024_S1024x1_0 (Host.reduce FloatOps.maximumf (Host.absf w) (constant S_ .f32 0xFF800000#32) reducesTo_S1024x1024_S1024_d1 h_S_)) (broadcastInDim S1024x1 ![] bcast_S_S1024x1 (constant S_ .f32 0x42FE0000#32))) (broadcastInDim S1024x1 ![] bcast_S_S1024x1 (constant S_ .f32 0x2B8CBCCC#32))

/-- The same quantization for a `[1024, 1024]` matrix. -/
def quant2 (w : FVec Ideal S1024x1024 .f32) : FVec Ideal S1024x1024 .f32 :=
  mulf (minimumf (broadcastInDim S1024x1024 ![] bcast_S_S1024x1024 (id (constant S_ .f32 0x42FE0000#32))) (maximumf (broadcastInDim S1024x1024 ![] bcast_S_S1024x1024 (id (constant S_ .f32 0xC3000000#32))) (Host.roundeven (Host.divf w (broadcastInDim S1024x1024 ![0, 1] bcast_S1024x1_S1024x1024_0_1 (scale2 w)))))) (broadcastInDim S1024x1024 ![0, 1] bcast_S1024x1_S1024x1024_0_1 (scale2 w))

set_option maxHeartbeats 8000000 in
theorem w1T_eq (c : Dev nD) :
    @Eq (S3072x1024.Idx → EReal) (V m c main_call0_v27)
      (truncf (F := Ideal) .bf16 (transpose S3072x1024 [1, 0] (quant1 (m ((c : Thread nD τ).loc main_arg1)))
          transposes_S1024x3072_S3072x1024_1_0) bitsLt_bf16_f32) := by
  dsimp only [V]
  simp only [hostOps0, TRef.unary, TRef.binary, TRef.nullary, TRef.reshape, TRef.toBuf, TRef.ofBuf, cast_eq]
  after_results_simp <;> rfl

set_option maxHeartbeats 8000000 in
theorem w2T_eq (c : Dev nD) :
    @Eq (S1024x1024.Idx → EReal) (V m c main_call0_v29)
      (truncf (F := Ideal) .bf16 (transpose S1024x1024 [1, 0] (quant2 (m ((c : Thread nD τ).loc main_arg3)))
          transposes_S1024x1024_S1024x1024_1_0) bitsLt_bf16_f32) := by
  dsimp only [V]
  simp only [hostOps0, TRef.unary, TRef.binary, TRef.nullary, TRef.reshape, TRef.toBuf, TRef.ofBuf, cast_eq]
  after_results_simp <;> rfl

/-- The first resident block at `(k, j)` is the quantized first weight matrix at `(j, k)`. -/
theorem w1T_apply (c : Dev nD) (k : Fin 3072) (j : Fin 1024) :
    (V m c main_call0_v27 : S3072x1024.Idx → EReal) (ix2 k j)
      = quant1 (m ((c : Thread nD τ).loc main_arg1)) (ix2 j k) := by
  refine (congrFun (w1T_eq m c) _).trans ?_
  refine (truncf_apply (ψ := .bf16) _ bitsLt_bf16_f32 (ix2 k j)).trans ?_
  exact transpose_apply [1, 0] _ transposes_S1024x3072_S3072x1024_1_0 (ix2 k j) (ix2 j k)
    (fun b => match b with | ⟨0, _⟩ => rfl | ⟨1, _⟩ => rfl)

/-- The second resident block at `(k, j)` is the quantized second weight matrix at `(j, k)`. -/
theorem w2T_apply (c : Dev nD) (k j : Fin 1024) :
    (V m c main_call0_v29 : S1024x1024.Idx → EReal) (ix2 k j)
      = quant2 (m ((c : Thread nD τ).loc main_arg3)) (ix2 j k) := by
  refine (congrFun (w2T_eq m c) _).trans ?_
  refine (truncf_apply (ψ := .bf16) _ bitsLt_bf16_f32 (ix2 k j)).trans ?_
  exact transpose_apply [1, 0] _ transposes_S1024x1024_S1024x1024_1_0 (ix2 k j) (ix2 j k)
    (fun b => match b with | ⟨0, _⟩ => rfl | ⟨1, _⟩ => rfl)

/-! ## The biases as rows -/

set_option maxHeartbeats 8000000 in
theorem b1_eq (c : Dev nD) :
    @Eq (S1x1024.Idx → EReal) (V m c main_call0_v33)
      (shapeCast S1x1024 (m ((c : Thread nD τ).loc main_arg2)) shapeCasts_S1024_S1x1024) := by
  dsimp only [V, hostOps0]
  after_results_simp <;> rfl

set_option maxHeartbeats 8000000 in
theorem b2_eq (c : Dev nD) :
    @Eq (S1x1024.Idx → EReal) (V m c main_call0_v34)
      (shapeCast S1x1024 (m ((c : Thread nD τ).loc main_arg4)) shapeCasts_S1024_S1x1024) := by
  dsimp only [V, hostOps0]
  after_results_simp <;> rfl

set_option maxHeartbeats 8000000 in
theorem hb_eq (c : Dev nD) :
    @Eq (S1x1000.Idx → EReal) (V m c main_call0_v35)
      (shapeCast S1x1000 (m ((c : Thread nD τ).loc main_arg6)) shapeCasts_S10x100_S1x1000) := by
  dsimp only [V, hostOps0]
  after_results_simp <;> rfl

/-- A vector `[1024]` laid as a row `[1, 1024]`, read at `(0, j)`, is the vector at `j`. -/
theorem row1024_apply (b : S1024.Idx → EReal) (j : Fin 1024) :
    shapeCast S1x1024 b shapeCasts_S1024_S1x1024 (ix2 (0 : Fin 1) j) = b (ix1 j) :=
  shapeCast_apply b shapeCasts_S1024_S1x1024 (ix2 (0 : Fin 1) j) (ix1 j) (by
    rewrite [Shape.rowMajor_val_one, Shape.rowMajor_val_two]
    show j.val = 0 * 1024 + j.val
    omega)

/-- The first bias row at `(0, j)` is the first bias at `j`. -/
theorem b1_apply (c : Dev nD) (j : Fin 1024) :
    (V m c main_call0_v33 : S1x1024.Idx → EReal) (ix2 (0 : Fin 1) j) = m ((c : Thread nD τ).loc main_arg2) (ix1 j) :=
  (congrFun (b1_eq m c) _).trans (row1024_apply _ j)

/-- The second bias row at `(0, j)` is the second bias at `j`. -/
theorem b2_apply (c : Dev nD) (j : Fin 1024) :
    (V m c main_call0_v34 : S1x1024.Idx → EReal) (ix2 (0 : Fin 1) j) = m ((c : Thread nD τ).loc main_arg4) (ix1 j) :=
  (congrFun (b2_eq m c) _).trans (row1024_apply _ j)

/-- The head-bias row at `(0, n)` is the bias of class `n % 100` of head `n / 100`. -/
theorem hb_apply (c : Dev nD) (n : Fin 1000) :
    (V m c main_call0_v35 : S1x1000.Idx → EReal) (ix2 (0 : Fin 1) n)
      = m ((c : Thread nD τ).loc main_arg6) (ix2 (headOf n) (classOf n)) :=
  (congrFun (hb_eq m c) _).trans
    (shapeCast_apply _ shapeCasts_S10x100_S1x1000 (ix2 (0 : Fin 1) n) (ix2 (headOf n) (classOf n)) (by
      rewrite [Shape.rowMajor_val_two, Shape.rowMajor_val_two]
      show n.val / 100 * 100 + n.val % 100 = 0 * 1000 + n.val
      omega))

/-! ## The head weights, flattened and transposed -/

set_option maxHeartbeats 8000000 in
theorem heads_eq (c : Dev nD) :
    @Eq (S1024x1000.Idx → EReal) (V m c main_call0_v32)
      (truncf (F := Ideal) .bf16 (transpose S1024x1000 [1, 0]
          (shapeCast S1000x1024 (m ((c : Thread nD τ).loc main_arg5)) shapeCasts_S10x100x1024_S1000x1024)
          transposes_S1000x1024_S1024x1000_1_0) bitsLt_bf16_f32) := by
  dsimp only [V, hostOps0]
  after_results_simp <;> rfl

/-- The transposed head weights at `(k, n)` are the weight of class `n % 100` of head `n / 100` at `k`. -/
theorem heads_apply (c : Dev nD) (k : Fin 1024) (n : Fin 1000) :
    (V m c main_call0_v32 : S1024x1000.Idx → EReal) (ix2 k n)
      = m ((c : Thread nD τ).loc main_arg5) (ix3 (headOf n) (classOf n) k) := by
  refine (congrFun (heads_eq m c) _).trans ?_
  refine (truncf_apply (ψ := .bf16) _ bitsLt_bf16_f32 (ix2 k n)).trans ?_
  rw [transpose_apply [1, 0] _ transposes_S1000x1024_S1024x1000_1_0 (ix2 k n) (ix2 n k)
    (fun b => match b with | ⟨0, _⟩ => rfl | ⟨1, _⟩ => rfl)]
  exact shapeCast_apply _ shapeCasts_S10x100x1024_S1000x1024 (ix2 n k) (ix3 (headOf n) (classOf n) k) (by
    rewrite [Shape.rowMajor_val_three, Shape.rowMajor_val_two]
    show (n.val / 100 * 100 + n.val % 100) * 1024 + k.val = n.val * 1024 + k.val
    omega)

end Cert.KernelIdeal.Windows

end
-- ==== Proof.MlpKernelValue.lean ====
import proofs.«112751_j30940944400880_2_alg».proof.Proof.Gen.KernelIdeal.Value
import proofs.«112751_j30940944400880_2_alg».proof.Proof.MlpBody
import proofs.«112751_j30940944400880_2_alg».proof.Proof.MlpWindows

/-!
# The kernel's result array

The grid has 32 points; point `t` reads rows `512·t … 512·t + 511` of the input and writes the same rows of the
result, while the six resident blocks are their whole arrays at every point. Since a row of the result depends only
on the same row of the input, what point `t` writes back is the restriction to its rows of ONE function of the
arrays — the network applied row by row — and the 32 blocks of rows cover the array (row `p` lies in block
`p / 512`). So after the run the result array is that function.
-/

noncomputable section

namespace Cert.KernelIdeal.KValue

open Cert.KernelIdeal Cert.KernelIdeal.Gen Idealize.ShloMosaic Idealize.ShloMosaic.TcCoe Idealize.SL.Sem
open Idealize.ShloMosaic.ValueIdx Cert.MlpSpec Cert.KernelIdeal.Windows Cert.KernelIdeal.Body
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The network applied row by row to the launch contents of the arguments, the two weight matrices quantized. -/
def result (c : Dev nD) : S16384x1000.Idx → EReal :=
  Cert.MlpSpec.out (m ((c : Thread nD τ).loc main_arg0)) (quant1 (m ((c : Thread nD τ).loc main_arg1)))
    (m ((c : Thread nD τ).loc main_arg2)) (quant2 (m ((c : Thread nD τ).loc main_arg3)))
    (m ((c : Thread nD τ).loc main_arg4)) (m ((c : Thread nD τ).loc main_arg5)) (m ((c : Thread nD τ).loc main_arg6))

/-- The block indices, decided over the grid: the input's and the result's blocks are at row-block `t`; every
    resident block is at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The block of inputs at point `t` is rows `512·t …` of the input array. -/
theorem blk_x (c : Dev nD) (t : Fin cfg0.N) (ht : t.val < 32) (r : Fin 512) (k : Fin 3072) :
    (iblk m c 0 t : S512x3072.Idx → EReal) (ix2 r k)
      = m ((c : Thread nD τ).loc main_arg0) (ix2 (⟨t.val * 512 + r.val, by have := r.isLt; omega⟩ : Fin 16384) k) := by
  obtain ⟨e00, e01, e10, e11, e20, e21, e30, e31, e40, e41, e50, e51, e60, e61, e70, e71⟩ := idx_facts t
  show V m c main_arg0 (((cfg0.win 0).blk t).view.emb (ix2 r k)) = _
  refine (congrFun (V_main_arg0 m c) _).trans (congrArg _ (funext fun a => Fin.ext ?_))
  match a with
  | ⟨0, _⟩ => show win0_0.index t (0 : Fin 2) * 512 + 1 * r.val = t.val * 512 + r.val; rw [e00]; omega
  | ⟨1, _⟩ => show win0_0.index t (1 : Fin 2) * 3072 + 1 * k.val = k.val; rw [e01]; omega

/-- The first resident block is, at every point, the whole transposed quantized first weight matrix. -/
theorem blk_w1 (c : Dev nD) (t : Fin cfg0.N) (k : Fin 3072) (j : Fin 1024) :
    (iblk m c 1 t : S3072x1024.Idx → EReal) (ix2 k j) = quant1 (m ((c : Thread nD τ).loc main_arg1)) (ix2 j k) := by
  obtain ⟨e00, e01, e10, e11, e20, e21, e30, e31, e40, e41, e50, e51, e60, e61, e70, e71⟩ := idx_facts t
  have e : ((cfg0.win 1).blk t).view.emb (ix2 k j) = ix2 k j := funext fun x => Fin.ext (by
    match x with
    | ⟨0, _⟩ => show win0_1.index t (0 : Fin 2) * 3072 + 1 * k.val = k.val; rw [e10]; omega
    | ⟨1, _⟩ => show win0_1.index t (1 : Fin 2) * 1024 + 1 * j.val = j.val; rw [e11]; omega)
  show V m c main_call0_v27 (((cfg0.win 1).blk t).view.emb (ix2 k j)) = _
  rw [e]
  exact w1T_apply m c k j

/-- The second resident block is the whole transposed quantized second weight matrix. -/
theorem blk_w2 (c : Dev nD) (t : Fin cfg0.N) (k : Fin 1024) (j : Fin 1024) :
    (iblk m c 2 t : S1024x1024.Idx → EReal) (ix2 k j) = quant2 (m ((c : Thread nD τ).loc main_arg3)) (ix2 j k) := by
  obtain ⟨e00, e01, e10, e11, e20, e21, e30, e31, e40, e41, e50, e51, e60, e61, e70, e71⟩ := idx_facts t
  have e : ((cfg0.win 2).blk t).view.emb (ix2 k j) = ix2 k j := funext fun x => Fin.ext (by
    match x with
    | ⟨0, _⟩ => show win0_2.index t (0 : Fin 2) * 1024 + 1 * k.val = k.val; rw [e20]; omega
    | ⟨1, _⟩ => show win0_2.index t (1 : Fin 2) * 1024 + 1 * j.val = j.val; rw [e21]; omega)
  show V m c main_call0_v29 (((cfg0.win 2).blk t).view.emb (ix2 k j)) = _
  rw [e]
  exact w2T_apply m c k j

/-- The third resident block is the head weights, flattened and transposed. -/
theorem blk_heads (c : Dev nD) (t : Fin cfg0.N) (k : Fin 1024) (n : Fin 1000) :
    (iblk m c 3 t : S1024x1000.Idx → EReal) (ix2 k n) = m ((c : Thread nD τ).loc main_arg5) (ix3 (headOf n) (classOf n) k) := by
  obtain ⟨e00, e01, e10, e11, e20, e21, e30, e31, e40, e41, e50, e51, e60, e61, e70, e71⟩ := idx_facts t
  have e : ((cfg0.win 3).blk t).view.emb (ix2 k n) = ix2 k n := funext fun x => Fin.ext (by
    match x with
    | ⟨0, _⟩ => show win0_3.index t (0 : Fin 2) * 1024 + 1 * k.val = k.val; rw [e30]; omega
    | ⟨1, _⟩ => show win0_3.index t (1 : Fin 2) * 1000 + 1 * n.val = n.val; rw [e31]; omega)
  show V m c main_call0_v32 (((cfg0.win 3).blk t).view.emb (ix2 k n)) = _
  rw [e]
  exact heads_apply m c k n

/-- The fourth resident block is the first bias as a row. -/
theorem blk_b1 (c : Dev nD) (t : Fin cfg0.N) (j : Fin 1024) :
    (iblk m c 4 t : S1x1024.Idx → EReal) (ix2 (0 : Fin 1) j) = m ((c : Thread nD τ).loc main_arg2) (ix1 j) := by
  obtain ⟨e00, e01, e10, e11, e20, e21, e30, e31, e40, e41, e50, e51, e60, e61, e70, e71⟩ := idx_facts t
  have e : ((cfg0.win 4).blk t).view.emb (ix2 (0 : Fin 1) j) = ix2 (0 : Fin 1) j := funext fun x => Fin.ext (by
    match x with
    | ⟨0, _⟩ => show win0_4.index t (0 : Fin 2) * 1 + 1 * 0 = 0; rw [e40]
    | ⟨1, _⟩ => show win0_4.index t (1 : Fin 2) * 1024 + 1 * j.val = j.val; rw [e41]; omega)
  show V m c main_call0_v33 (((cfg0.win 4).blk t).view.emb (ix2 (0 : Fin 1) j)) = _
  rw [e]
  exact b1_apply m c j

/-- The fifth resident block is the second bias as a row. -/
theorem blk_b2 (c : Dev nD) (t : Fin cfg0.N) (j : Fin 1024) :
    (iblk m c 5 t : S1x1024.Idx → EReal) (ix2 (0 : Fin 1) j) = m ((c : Thread nD τ).loc main_arg4) (ix1 j) := by
  obtain ⟨e00, e01, e10, e11, e20, e21, e30, e31, e40, e41, e50, e51, e60, e61, e70, e71⟩ := idx_facts t
  have e : ((cfg0.win 5).blk t).view.emb (ix2 (0 : Fin 1) j) = ix2 (0 : Fin 1) j := funext fun x => Fin.ext (by
    match x with
    | ⟨0, _⟩ => show win0_5.index t (0 : Fin 2) * 1 + 1 * 0 = 0; rw [e50]
    | ⟨1, _⟩ => show win0_5.index t (1 : Fin 2) * 1024 + 1 * j.val = j.val; rw [e51]; omega)
  show V m c main_call0_v34 (((cfg0.win 5).blk t).view.emb (ix2 (0 : Fin 1) j)) = _
  rw [e]
  exact b2_apply m c j

/-- The sixth resident block is the head biases as one row, head after head. -/
theorem blk_hb (c : Dev nD) (t : Fin cfg0.N) (j : Fin 1000) :
    (iblk m c 6 t : S1x1000.Idx → EReal) (ix2 (0 : Fin 1) j) = m ((c : Thread nD τ).loc main_arg6) (ix2 (headOf j) (classOf j)) := by
  obtain ⟨e00, e01, e10, e11, e20, e21, e30, e31, e40, e41, e50, e51, e60, e61, e70, e71⟩ := idx_facts t
  have e : ((cfg0.win 6).blk t).view.emb (ix2 (0 : Fin 1) j) = ix2 (0 : Fin 1) j := funext fun x => Fin.ext (by
    match x with
    | ⟨0, _⟩ => show win0_6.index t (0 : Fin 2) * 1 + 1 * 0 = 0; rw [e60]
    | ⟨1, _⟩ => show win0_6.index t (1 : Fin 2) * 1000 + 1 * j.val = j.val; rw [e61]; omega)
  show V m c main_call0_v35 (((cfg0.win 6).blk t).view.emb (ix2 (0 : Fin 1) j)) = _
  rw [e]
  exact hb_apply m c j

/-- What point `t` writes back is block `t` of the row-by-row network. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz]
  simp only [View.ld_unit_zero (S := S512x3072) hz, View.ld_unit_zero (S := S3072x1024) hz,
    View.ld_unit_zero (S := S1x1024) hz, View.ld_unit_zero (S := S1024x1024) hz,
    View.ld_unit_zero (S := S1024x1000) hz, View.ld_unit_zero (S := S1x1000) hz]
  obtain ⟨-, -, -, -, -, -, -, -, -, -, -, -, -, -, e70, e71⟩ := idx_facts t
  have hT : t.val < 32 := lt_of_lt_of_eq t.isLt N_0
  funext y
  show k0_pay1 (F := Ideal) (iblk m c 0 t) (iblk m c 1 t) (iblk m c 4 t) (iblk m c 2 t) (iblk m c 5 t) (iblk m c 3 t)
      (iblk m c 6 t) y = result m c (((cfg0.win 7).blk t).view.emb y)
  refine block_eq (m ((c : Thread nD τ).loc main_arg0)) (quant1 (m ((c : Thread nD τ).loc main_arg1)))
    (m ((c : Thread nD τ).loc main_arg2)) (quant2 (m ((c : Thread nD τ).loc main_arg3)))
    (m ((c : Thread nD τ).loc main_arg4)) (m ((c : Thread nD τ).loc main_arg5)) (m ((c : Thread nD τ).loc main_arg6))
    (iblk m c 0 t) (iblk m c 1 t) (iblk m c 4 t) (iblk m c 2 t) (iblk m c 5 t) (iblk m c 3 t) (iblk m c 6 t)
    t.val hT (blk_x m c t hT) (blk_w1 m c t) (blk_b1 m c t) (blk_w2 m c t) (blk_b2 m c t) (blk_heads m c t)
    (blk_hb m c t) y (((cfg0.win 7).blk t).view.emb y) ?_ ?_
  · show win0_7.index t (0 : Fin 2) * 512 + 1 * (y 0).val = t.val * 512 + (y 0).val
    rw [e70]; omega
  · show win0_7.index t (1 : Fin 2) * 1000 + 1 * (y 1).val = (y 1).val
    rw [e71]; omega

/-- An index of the result array is in point `t`'s block iff each coordinate is in the block's range on its axis. -/
theorem mem_blk (t : Fin cfg0.N) (i : S16384x1000.Idx) :
    i ∈ ((cfg0.win 7).blk t).view.set ↔ ∀ a : Fin 2, win0_7.index t a * S512x1000.size a ≤ (i a).val
      ∧ (i a).val < win0_7.index t a * S512x1000.size a + S512x1000.size a := by
  show i ∈ ((View.whole main_v0).slice (win0_7.rect t)).set ↔ _
  rw [View.set_slice_whole, Rect.mem_set_unit]
  exact Iff.rfl

/-- The 32 blocks of 512 rows cover the result array: row `p` is in block `p / 512`. -/
theorem cover (i : S16384x1000.Idx) :
    ∃ t : Fin cfg0.N, (cfg0.win 7).flush t = true ∧ i ∈ ((cfg0.win 7).blk t).view.set := by
  have h0 : (i 0).val < 16384 := (i 0).isLt
  have h1 : (i 1).val < 1000 := (i 1).isLt
  have hN : (i 0).val / 512 < cfg0.N := lt_of_lt_of_eq (by omega : (i 0).val / 512 < 32) N_0.symm
  obtain ⟨t, ht⟩ : ∃ t : Fin cfg0.N, t.val = (i 0).val / 512 := ⟨⟨_, hN⟩, rfl⟩
  obtain ⟨-, -, -, -, -, -, -, -, -, -, -, -, -, -, e70, e71⟩ := idx_facts t
  refine ⟨t, flush0_7 t, ?_⟩
  rw [mem_blk]
  intro a
  match a with
  | ⟨0, _⟩ =>
    show win0_7.index t (0 : Fin 2) * 512 ≤ (i 0).val ∧ (i 0).val < win0_7.index t (0 : Fin 2) * 512 + 512
    rw [e70, ht]; omega
  | ⟨1, _⟩ =>
    show win0_7.index t (1 : Fin 2) * 1000 ≤ (i 1).val ∧ (i 1).val < win0_7.index t (1 : Fin 2) * 1000 + 1000
    rw [e71]; omega

/-- The result array after the run. -/
theorem final (c : Dev nD) : (dats m 0 c).arrAt 7 cfg0.N = result m c :=
  (dats m 0 c).arrAt_eq_of_cover 7 (result m c) (fun t _ => flushed_eq m c t) cover

/-- Every weakly fair execution of the kernel terminates with the result array holding the network applied row by
    row, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.KValue

end
-- ==== Proof.MlpReference.lean ====
import proofs.«112751_j30940944400880_2_alg».proof.Proof.Gen.ReferenceIdeal.Read
import proofs.«112751_j30940944400880_2_alg».proof.Proof.MlpSpec

/-!
# The reference computes the network, with the quantized weights

The reference forms each quantized weight matrix `q` from the weights `w` and then uses `w + (q - w)` in its
place (the difference is there for differentiation only). For real `w` this is `q` again, entry by entry. Its two
hidden layers are a product with the transposed weights, the bias repeated down the rows, and a maximum with zero;
its last layer contracts the hidden row against the head weights `[10, 100, 1024]` over the last axis, adds the head
biases, and lays the ten heads of a hundred classes side by side, so that column `n` of the result is class
`n % 100` of head `n / 100`. Entry `(p, n)` of the result is therefore channel `n` of the network on row `p`.
-/

noncomputable section

open scoped BigOperators

namespace Cert.ReferenceIdeal.RefValue

open Cert.ReferenceIdeal Cert.ReferenceIdeal.Read Idealize.ShloMosaic Idealize.ShloMosaic.ValueIdx Cert.MlpSpec
open Idealize.ShloMosaic.StraightThrough

/-- For real weights, the first weight matrix as the reference uses it is the quantized one. -/
theorem straight1 (x1 : (⟨S1024x3072, .f32⟩ : BufTy).Contents (Elt Ideal)) (h1 : ∀ i, ∃ r : ℝ, x1 i = (r : EReal))
    (i : S1024x3072.Idx) : val_main_v14 (F := Ideal) x1 i = val_main_v12 (F := Ideal) x1 i := by
  obtain ⟨r, hr⟩ := h1 i
  show x1 i + (val_main_v12 (F := Ideal) x1 i - x1 i) = _
  generalize val_main_v12 (F := Ideal) x1 i = q
  rw [hr]
  exact add_sub_cancel_of_real r q

/-- For real weights, the second weight matrix as the reference uses it is the quantized one. -/
theorem straight2 (x3 : (⟨S1024x1024, .f32⟩ : BufTy).Contents (Elt Ideal)) (h3 : ∀ i, ∃ r : ℝ, x3 i = (r : EReal))
    (i : S1024x1024.Idx) : val_main_v35 (F := Ideal) x3 i = val_main_v33 (F := Ideal) x3 i := by
  obtain ⟨r, hr⟩ := h3 i
  show x3 i + (val_main_v33 (F := Ideal) x3 i - x3 i) = _
  generalize val_main_v33 (F := Ideal) x3 i = q
  rw [hr]
  exact add_sub_cancel_of_real r q

/-- The first hidden layer at `(p, j)`. -/
theorem hidden1 (x0 : (⟨S16384x3072, .f32⟩ : BufTy).Contents (Elt Ideal)) (x1 : (⟨S1024x3072, .f32⟩ : BufTy).Contents (Elt Ideal))
    (x2 : (⟨S1024, .f32⟩ : BufTy).Contents (Elt Ideal)) (h1 : ∀ i, ∃ r : ℝ, x1 i = (r : EReal))
    (p : Fin 16384) (j : Fin 1024) :
    val_main_v20 (F := Ideal) x0 x1 x2 (ix2 p j)
      = rect (affine (fun k => x0 (ix2 p k)) (fun j k => val_main_v12 (F := Ideal) x1 (ix2 j k)) (fun j => x2 (ix1 j))) j := by
  have el : ∀ k : Fin 3072, lidx_main_v16 (ix2 p j) k = ix2 p k := fun k =>
    funext fun a => Fin.ext (by match a with | ⟨0, _⟩ => rfl | ⟨1, _⟩ => rfl)
  have er : ∀ k : Fin 3072, idx_main_v15 (ridx_main_v16 (ix2 p j) k) = ix2 j k := fun k =>
    funext fun a => Fin.ext (by match a with | ⟨0, _⟩ => rfl | ⟨1, _⟩ => rfl)
  have eb : idx_main_v17 (idx_main_v18 (ix2 p j)) = ix1 j :=
    funext fun a => Fin.ext (by match a with | ⟨0, _⟩ => rfl)
  rw [val_main_v20_apply, val_main_v19_apply, val_main_v16_apply, val_main_v18_apply, val_main_v17_apply,
    val_main_call2_v0_apply, val_main_call2_cst_apply]
  simp only [val_main_v15_apply, straight1 x1 h1, el, er, eb]
  show max (_ + _) (Ideal.ofBits .f32 0x00000000#32) = _
  rw [Ideal.ofBits_zero_f32]
  rfl

/-- The second hidden layer at `(p, j)`, over the first. -/
theorem hidden2 (x0 : (⟨S16384x3072, .f32⟩ : BufTy).Contents (Elt Ideal)) (x1 : (⟨S1024x3072, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (h3 : ∀ i, ∃ r : ℝ, x3 i = (r : EReal))
    (p : Fin 16384) (j : Fin 1024) :
    val_main_v41 (F := Ideal) x0 x1 x2 x3 x4 (ix2 p j)
      = rect (affine (fun k => val_main_v20 (F := Ideal) x0 x1 x2 (ix2 p k))
          (fun j k => val_main_v33 (F := Ideal) x3 (ix2 j k)) (fun j => x4 (ix1 j))) j := by
  have el : ∀ k : Fin 1024, lidx_main_v37 (ix2 p j) k = ix2 p k := fun k =>
    funext fun a => Fin.ext (by match a with | ⟨0, _⟩ => rfl | ⟨1, _⟩ => rfl)
  have er : ∀ k : Fin 1024, idx_main_v36 (ridx_main_v37 (ix2 p j) k) = ix2 j k := fun k =>
    funext fun a => Fin.ext (by match a with | ⟨0, _⟩ => rfl | ⟨1, _⟩ => rfl)
  have eb : idx_main_v38 (idx_main_v39 (ix2 p j)) = ix1 j :=
    funext fun a => Fin.ext (by match a with | ⟨0, _⟩ => rfl)
  rw [val_main_v41_apply, val_main_v40_apply, val_main_v37_apply, val_main_v39_apply, val_main_v38_apply,
    val_main_call5_v0_apply, val_main_call5_cst_apply]
  simp only [val_main_v36_apply, straight2 x3 h3, el, er, eb]
  show max (_ + _) (Ideal.ofBits .f32 0x00000000#32) = _
  rw [Ideal.ofBits_zero_f32]
  rfl

/-- The result at `(p, n)`, over the second hidden layer. -/
theorem heads (x0 : (⟨S16384x3072, .f32⟩ : BufTy).Contents (Elt Ideal)) (x1 : (⟨S1024x3072, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S10x100x1024, .f32⟩ : BufTy).Contents (Elt Ideal))
    (x6 : (⟨S10x100, .f32⟩ : BufTy).Contents (Elt Ideal)) (p : Fin 16384) (n : Fin 1000) :
    val_main_v46 (F := Ideal) x0 x1 x2 x3 x4 x5 x6 (ix2 p n)
      = affine (fun k => val_main_v41 (F := Ideal) x0 x1 x2 x3 x4 (ix2 p k))
          (fun n k => x5 (ix3 (headOf n) (classOf n) k)) (fun n => x6 (ix2 (headOf n) (classOf n))) n := by
  have hp := p.isLt
  have hn := n.isLt
  have el : ∀ k : Fin 1024, lidx_main_v42 (idx_main_v46 (ix2 p n)) k = ix2 p k := fun k =>
    funext fun a => Fin.ext (by
      match a with
      | ⟨0, _⟩ => show (p.val * 1000 + n.val) / 1000 = p.val; omega
      | ⟨1, _⟩ => rfl)
  have er : ∀ k : Fin 1024, ridx_main_v42 (idx_main_v46 (ix2 p n)) k = ix3 (headOf n) (classOf n) k := fun k =>
    funext fun a => Fin.ext (by
      match a with
      | ⟨0, _⟩ => show (p.val * 1000 + n.val) / 100 % 10 = n.val / 100; omega
      | ⟨1, _⟩ => show (p.val * 1000 + n.val) % 100 = n.val % 100; omega
      | ⟨2, _⟩ => rfl)
  have eb : idx_main_v43 (idx_main_v44 (idx_main_v46 (ix2 p n))) = ix2 (headOf n) (classOf n) :=
    funext fun a => Fin.ext (by
      match a with
      | ⟨0, _⟩ => show (p.val * 1000 + n.val) / 100 % 10 = n.val / 100; omega
      | ⟨1, _⟩ => show (p.val * 1000 + n.val) % 100 = n.val % 100; omega)
  rw [val_main_v46_apply, val_main_v45_apply, val_main_v42_apply, val_main_v44_apply, val_main_v43_apply]
  simp only [el, er, eb]
  rfl

/-- The reference's result array is the network applied row by row, with the quantized weight matrices, when the
    weights it quantizes are real. -/
theorem result_eq (x0 : (⟨S16384x3072, .f32⟩ : BufTy).Contents (Elt Ideal)) (x1 : (⟨S1024x3072, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S10x100x1024, .f32⟩ : BufTy).Contents (Elt Ideal))
    (x6 : (⟨S10x100, .f32⟩ : BufTy).Contents (Elt Ideal))
    (h1 : ∀ i, ∃ r : ℝ, x1 i = (r : EReal)) (h3 : ∀ i, ∃ r : ℝ, x3 i = (r : EReal)) :
    val_main_v46 (F := Ideal) x0 x1 x2 x3 x4 x5 x6
      = Cert.MlpSpec.out x0 (val_main_v12 (F := Ideal) x1) x2 (val_main_v33 (F := Ideal) x3) x4 x5 x6 := by
  funext i
  obtain ⟨p, n, rfl⟩ : ∃ (p : Fin 16384) (n : Fin 1000), i = ix2 p n := ⟨i 0, i 1, eq_ix2 i⟩
  rw [heads]
  simp only [hidden2 x0 x1 x2 x3 x4 h3, hidden1 x0 x1 x2 h1]
  rfl

end Cert.ReferenceIdeal.RefValue

end
-- ==== Proof.MlpFinite.lean ====
import proofs.«112751_j30940944400880_2_alg».proof.Pre_finite_inputs
import proofs.«112751_j30940944400880_2_alg».proof.Proof.MlpSpec
import Idealize.ShloMosaic.Lib.ReduceAll
import Idealize.ShloMosaic.Lib.Affine

/-!
# The precondition makes the two weight matrices real

The precondition is the conjunction, over the seven inputs, of "every entry has absolute value strictly below
`+∞`", each conjunct an `and`-reduction of the comparisons over the whole array. Read at the extended reals, the
conjuncts for the two weight matrices say that every entry `w` has `max w (-w)` below some bound, so `w` is neither
`⊤` nor `⊥`: it is a real number. (The other five conjuncts are not used.)
-/

noncomputable section

namespace Cert.Pre_finite_inputs.Finite

open Cert.Pre_finite_inputs Idealize.ShloMosaic Idealize.ShloMosaic.ValueIdx

variable [Facts]
open Facts

instance : Subsingleton S_.Idx := ⟨fun a b => funext fun d => d.elim0⟩

/-- A comparison "less than" on the extended reals that answers 1 holds. -/
theorem lt_of_cmp_olt {x y : EReal} (h : Ideal.cmp .olt x y = 1#1) : x < y := by
  by_contra hn
  simp [Ideal.cmp, hn] at h

/-- Under the precondition every entry of the first and of the second weight matrix is a real number. -/
theorem weights_real (a0 : FVec Ideal S16384x3072 .f32) (a1 : FVec Ideal S1024x3072 .f32) (a2 : FVec Ideal S1024 .f32)
    (a3 : FVec Ideal S1024x1024 .f32) (a4 : FVec Ideal S1024 .f32) (a5 : FVec Ideal S10x100x1024 .f32)
    (a6 : FVec Ideal S10x100 .f32) (h : fn (F := Ideal) a0 a1 a2 a3 a4 a5 a6 = fun _ => 1#1) :
    (∀ i : S1024x3072.Idx, ∃ r : ℝ, a1 i = (r : EReal)) ∧ (∀ i : S1024x1024.Idx, ∃ r : ℝ, a3 i = (r : EReal)) := by
  have h33 := congrFun h ix0
  dsimp only [fn, fn_part1] at h33
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, -⟩ := IntOp.andi_eq_one.1 h13
  obtain ⟨-, h7⟩ := IntOp.andi_eq_one.1 h8
  refine ⟨fun i => ?_, fun i => ?_⟩
  · have e := Host.reduce_andi_all _ _ _ _ ix0 h7 i
    exact Idealize.ShloMosaic.StraightThrough.real_of_abs_lt (lt_of_cmp_olt e)
  · have e := Host.reduce_andi_all _ _ _ _ ix0 h17 i
    exact Idealize.ShloMosaic.StraightThrough.real_of_abs_lt (lt_of_cmp_olt e)

end Cert.Pre_finite_inputs.Finite

end
-- ==== Proof.MlpQuant.lean ====
import proofs.«112751_j30940944400880_2_alg».proof.Proof.MlpWindows
import proofs.«112751_j30940944400880_2_alg».proof.Proof.Gen.ReferenceIdeal.Read

/-!
# The two programs quantize the weights by the same operations

The kernel's host side and the reference apply the same operations, with the same constants, to a weight matrix to
quantize it; so the kernel's quantized matrix is the reference's stage of the same name, first for the row steps and
then for the whole matrix. Nothing is computed: the two terms are one.
-/

noncomputable section

namespace Cert.KernelIdeal.Windows

open Idealize.ShloMosaic

theorem scale1_eq (w : FVec Ideal Cert.KernelIdeal.S1024x3072 .f32) :
    scale1 w = Cert.ReferenceIdeal.Read.val_main_v6 (F := Ideal) w := rfl

theorem quant1_eq (w : FVec Ideal Cert.KernelIdeal.S1024x3072 .f32) :
    quant1 w = Cert.ReferenceIdeal.Read.val_main_v12 (F := Ideal) w := by
  unfold quant1
  rw [scale1_eq]
  rfl

theorem scale2_eq (w : FVec Ideal Cert.KernelIdeal.S1024x1024 .f32) :
    scale2 w = Cert.ReferenceIdeal.Read.val_main_v27 (F := Ideal) w := rfl

theorem quant2_eq (w : FVec Ideal Cert.KernelIdeal.S1024x1024 .f32) :
    quant2 w = Cert.ReferenceIdeal.Read.val_main_v33 (F := Ideal) w := by
  unfold quant2
  rw [scale2_eq]
  rfl

end Cert.KernelIdeal.Windows

end
-- ==== Proof.lean ====
/-
  A three-layer perceptron with quantized hidden weights, as one fused kernel and as plain array code.

  Both programs quantize the two hidden weight matrices row by row in the same way (the row's largest absolute value
  over 127 is the step; an entry becomes its quotient by the step, rounded, clamped to [-128, 127], times the step).
  The kernel then transposes the quantized matrices, lays the biases as rows and flattens and transposes the head
  weights, and runs 32 grid points, each taking 512 rows of the input through

      h1 = max (x · Q1ᵀ + b1) 0,   h2 = max (h1 · Q2ᵀ + b2) 0,   out = h2 · Wᵀ + b

  with every product started from a zero accumulator. The reference computes the same three layers on all 16384 rows
  at once, with one difference: in place of a quantized matrix Q it uses w + (Q - w), w the unquantized weights, and
  its last layer contracts against the head weights [10, 100, 1024] and lays the ten heads side by side afterwards.

  Over the extended reals a product into a zero accumulator and the host's contraction are the same finite sum, a
  change of float format is the identity, and w + (Q - w) = Q whenever w is a real number — which the precondition
  (every input finite) gives for the two weight matrices; this is the one place where it is used. A row of the result
  depends only on the same row of the input, so the 32 blocks of rows the kernel writes are the restrictions of one
  function of the arrays, and they cover the result. Hence both programs end with the same array: entry (p, n) is
  channel n (class n % 100 of head n / 100) of the network applied to row p.

  The modules: MlpSpec (the network on a row, the two laws on the extended reals), MlpBody (the kernel body's block of
  results entry by entry), MlpWindows (what the resident blocks hold), MlpKernelValue (from blocks to the array),
  MlpReference (the reference's stages entry by entry), MlpFinite (the precondition makes the weights real),
  MlpQuant (the two quantizations are one term), LibPlainMatmul (a plain product into a zero accumulator as a sum),
  LibStraightThrough (w + (Q - w) = Q for real w; a number of bounded absolute value is real).
-/
import proofs.«112751_j30940944400880_2_alg».proof.Defs
import proofs.«112751_j30940944400880_2_alg».proof.Proof.Gen.Kernel
import proofs.«112751_j30940944400880_2_alg».proof.Proof.Gen.Kernel.Skeleton
import proofs.«112751_j30940944400880_2_alg».proof.Proof.Gen.Kernel.Launch
import proofs.«112751_j30940944400880_2_alg».proof.Proof.Gen.Kernel.Points
import proofs.«112751_j30940944400880_2_alg».proof.Proof.Gen.Kernel.Frame
import proofs.«112751_j30940944400880_2_alg».proof.Proof.Gen.KernelIdeal
import proofs.«112751_j30940944400880_2_alg».proof.Proof.Gen.KernelIdeal.Skeleton
import proofs.«112751_j30940944400880_2_alg».proof.Proof.Gen.KernelIdeal.Launch
import proofs.«112751_j30940944400880_2_alg».proof.Proof.Gen.KernelIdeal.Points
import proofs.«112751_j30940944400880_2_alg».proof.Proof.Gen.KernelIdeal.Frame
import proofs.«112751_j30940944400880_2_alg».proof.Proof.Gen.ReferenceIdeal
import proofs.«112751_j30940944400880_2_alg».proof.Proof.Gen.Pre_finite_inputs
import proofs.«112751_j30940944400880_2_alg».proof.Proof.Gen.KernelIdeal.Value
import proofs.«112751_j30940944400880_2_alg».proof.Proof.Gen.ReferenceIdeal.Run
import proofs.«112751_j30940944400880_2_alg».proof.Proof.Gen.ReferenceIdeal.Read
import proofs.«112751_j30940944400880_2_alg».proof.Proof.MlpKernelValue
import proofs.«112751_j30940944400880_2_alg».proof.Proof.MlpReference
import proofs.«112751_j30940944400880_2_alg».proof.Proof.MlpFinite
import proofs.«112751_j30940944400880_2_alg».proof.Proof.MlpQuant
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- And the reference: its run, with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments, finite, both programs end with the network applied row by row: the
    kernel by its blocks of rows, the reference stage by stage, its weights `w + (Q - w)` being `Q` for real `w`. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨h1, h3⟩ := Cert.Pre_finite_inputs.Finite.weights_real _ _ _ _ _ _ _ (hpre c)
  refine (Cert.ReferenceIdeal.Read.val_main_v46_eq (F := Ideal) _ _ _ _ _ _ _).trans ?_
  rw [a0, a1, a2, a3, a4, a5, a6, Cert.ReferenceIdeal.RefValue.result_eq _ _ _ _ _ _ _ h1 h3,
    ← Cert.KernelIdeal.Windows.quant1_eq, ← Cert.KernelIdeal.Windows.quant2_eq]
  rfl

theorem claim : Cert.Claim :=
  ⟨Cert.Kernel.Gen.facts, Cert.KernelIdeal.Gen.facts, Cert.ReferenceIdeal.Gen.facts, Cert.Pre_finite_inputs.Gen.facts,
    @frame_kernel Cert.Kernel.Gen.facts Cert.Pre_finite_inputs.Gen.facts,
    @frame_kernelIdeal Cert.KernelIdeal.Gen.facts Cert.Pre_finite_inputs.Gen.facts,
    @frame_reference Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
